-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel

variable [Facts]

def fn {F : FTy → Type} [FloatOps F] (main_arg0 : FVec F S16384x16384 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  main_v3
-- ==== Kernel.lean ====
abbrev S16384x16384 : Shape := ⟨2, ![16384, 16384]⟩
abbrev S128x16384 : Shape := ⟨2, ![128, 16384]⟩

abbrev nBuf : Space → Nat
  | .hbm => 2
  | .vmem => 4
  | .smem => 0
  | _ => 0

abbrev bufTy : (tb : Table) → Fin (tcTables nBuf tb) → BufTy
  | .hbm, ⟨0, _⟩ => ⟨S16384x16384, .f32⟩
  | .hbm, ⟨1, _⟩ => ⟨S16384x16384, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x16384_S128x16384_0_0 : ∀ a, (![0, 0] : Fin 2 → Nat) a + S128x16384.size a ≤ S128x16384.size a
  h_S128x16384 : 0 < S128x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S16384x16384.size a
  hwx0_1 : ∀ i : grid0.Coords, EltTy.bits .f32 = 32 ∨ (Rect.block (s := S16384x16384) S128x16384.size (cc0_transform_1 i) (hinb0_1 i)).WholeWords (EltTy.packing .f32)

variable [Facts₀]

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16384x16384 : Shape := ⟨2, ![16384, 16384]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S_, .f32⟩
  | .hbm, ⟨2, _⟩ => ⟨S16384x16384, .f32⟩
  | .hbm, ⟨3, _⟩ => ⟨S16384x16384, .f32⟩
  | .hbm, ⟨4, _⟩ => ⟨S16384x16384, .f32⟩
  | .hbm, ⟨5, _⟩ => ⟨S16384x16384, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S_, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)

variable [Facts₀]

class Facts : Prop extends Facts₀ where

variable [Facts]
-- ==== Proof.Consts.lean ====
/-
  The float constants the two programs spell, as the extended reals their binary patterns denote.
  The density scale appears twice: the reference multiplies by the single-precision word nearest 1/sqrt(2 pi),
  whose value is the dyadic rational 13386282 / 2^25, and the kernel by the word with the same significand and
  the next exponent, 13386282 / 2^24 — exactly twice the reference's, since doubling a float is exact.
-/
import Idealize.ShloMosaic.PureOps.Ideal

noncomputable section

namespace Cert.HessGelu.Consts

open Idealize.ShloMosaic

/-- `1.0` denotes the real one. -/
theorem one : Ideal.ofBits .f32 0x3F800000#32 = ((1 : ℝ) : EReal) := by
  simp [Ideal.ofBits, Ideal.ieee, -EReal.coe_mul]; norm_num

/-- `2.0` denotes the real two. -/
theorem two : Ideal.ofBits .f32 0x40000000#32 = ((2 : ℝ) : EReal) := by
  simp [Ideal.ofBits, Ideal.ieee, -EReal.coe_mul]; norm_num

/-- `-0.5` denotes minus one half. -/
theorem neg_half : Ideal.ofBits .f32 0xBF000000#32 = ((-(1 / 2) : ℝ) : EReal) := by
  simp [Ideal.ofBits, Ideal.ieee, -EReal.coe_mul]; norm_num

/-- The reference's density scale: significand 13386282, exponent -25. -/
theorem scale : Ideal.ofBits .f32 0x3ECC422A#32 = ((13386282 / 2 ^ 25 : ℝ) : EReal) := by
  simp [Ideal.ofBits, Ideal.ieee, -EReal.coe_mul]; norm_num

/-- The kernel's folded scale: the same significand one exponent up, twice the reference's scale. -/
theorem scale2 : Ideal.ofBits .f32 0x3F4C422A#32 = ((2 * (13386282 / 2 ^ 25) : ℝ) : EReal) := by
  simp [Ideal.ofBits, Ideal.ieee, -EReal.coe_mul]; norm_num

/-- The pattern of +inf denotes the top of the extended reals. -/
theorem inf : Ideal.ofBits .f32 0x7F800000#32 = ⊤ := by
  simp [Ideal.ofBits, Ideal.ieee]

end Cert.HessGelu.Consts

end
-- ==== Proof.Finite.lean ====
/-
  The precondition read back: every entry of the input is a real number.
  The printed predicate is the conjunction over all entries of |x| < +inf. If it holds, every single comparison
  holds; the pattern of +inf denotes the top extended real, |x| is max x (-x), and max x (-x) < top rules out
  both x = top and x = bottom, so x is the coercion of a real.
-/
import proofs.«107339_j15676630630556_2_alg».proof.Pre_finite_inputs
import proofs.«107339_j15676630630556_2_alg».proof.Proof.Consts
import Idealize.ShloMosaic.Lib.ReduceAll
import Idealize.ShloMosaic.PureOps.Ideal.Laws

noncomputable section

namespace Cert.HessGelu

open Idealize.ShloMosaic Cert.Pre_finite_inputs

/-- The scalar shape has exactly one index. -/
instance : Subsingleton S_.Idx := ⟨fun a b => funext fun d => d.elim0⟩

/-- If the printed predicate is all ones on an array, each entry of the array is a real number. -/
theorem real_of_pre [Facts] (x : FVec Ideal S16384x16384 .f32)
    (h : fn (F := Ideal) x = fun _ => 1#1) (i : S16384x16384.Idx) : ∃ r : ℝ, x i = (r : EReal) := by
  have h0 := congrFun h (fun d => d.elim0)
  dsimp only [fn] at h0
  have hi := Host.reduce_andi_all _ _ _ _ _ h0 i
  simp only [cmpf, Host.absf, broadcastInDim, constant, Ideal.cmpf_def, Ideal.hostAbsf_def, Ideal.absf_def,
    Ideal.ofBits_def, Consts.inf, Ideal.cmp] at hi
  have ob : ∀ {b : Bool}, BitVec.ofBool b = 1#1 → b = true := by intro b; cases b <;> decide
  have hlt : max (x i) (-(x i)) < ⊤ := of_decide_eq_true (ob hi)
  have htop : x i ≠ ⊤ := fun e => by rw [e] at hlt; simp at hlt
  have hbot : x i ≠ ⊥ := fun e => by rw [e] at hlt; simp at hlt
  exact ⟨(x i).toReal, (EReal.coe_toReal htop hbot).symm⟩

end Cert.HessGelu

end
-- ==== Proof.Law.lean ====
/-
  The pointwise law joining the two programs at a finite input.
  With p(x) = exp(-x^2/2) and s the reference's density scale, the reference computes (2 - 2 x^2) * (s * p(x)),
  spelling -x^2/2 as ((-1/2) * x) * x and 2 x^2 as (2 * x) * x; the kernel computes (1 - x^2) * ((2 s) * p(x)),
  spelling -x^2/2 as (-1/2) * (x * x). For a real x every intermediate is a real number, the two exponents are
  the same real, and (2 - 2 x^2) * (s * e) = (1 - x^2) * (2 s * e) is the distributive law of the reals.
-/
import proofs.«107339_j15676630630556_2_alg».proof.Proof.Consts

noncomputable section

namespace Cert.HessGelu

open Idealize.ShloMosaic

/-- At a real input, the reference's value (left) is the kernel's value (right), both as extended reals. -/
theorem pointwise (r : ℝ) :
    (Ideal.ofBits .f32 0x40000000#32 - Ideal.ofBits .f32 0x40000000#32 * (r : EReal) * (r : EReal))
        * (Ideal.ofBits .f32 0x3ECC422A#32 * Ideal.exp (Ideal.ofBits .f32 0xBF000000#32 * (r : EReal) * (r : EReal)))
      = (Ideal.ofBits .f32 0x3F800000#32 - (r : EReal) * (r : EReal))
        * (Ideal.ofBits .f32 0x3F4C422A#32 * Ideal.exp (Ideal.ofBits .f32 0xBF000000#32 * ((r : EReal) * (r : EReal)))) := by
  rw [Consts.two, Consts.scale, Consts.neg_half, Consts.one, Consts.scale2]
  simp only [← EReal.coe_mul, ← EReal.coe_sub, Ideal.exp_coe]
  have e : -(1 / 2 : ℝ) * r * r = -(1 / 2) * (r * r) := by ring
  rw [e]
  congr 1
  ring

end Cert.HessGelu

end
-- ==== Proof.Bridge.lean ====
/-
  The reference's result array is the kernel's function of the input, entry by entry, when the input is real.
  The reference run ends with its result at the composed term of its sixteen host operations; the kernel's value
  leg ends with its result at the closed form `G1` of the input. At an index both read the input at that same
  index only (every operation is pointwise, every constant a broadcast scalar), so the equation of arrays is the
  pointwise law at the entry's real value.
-/
import proofs.«107339_j15676630630556_2_alg».proof.Proof.Gen.KernelIdeal.Value
import proofs.«107339_j15676630630556_2_alg».proof.Proof.Gen.ReferenceIdeal.Run
import proofs.«107339_j15676630630556_2_alg».proof.Proof.Law

noncomputable section

namespace Cert.ReferenceIdeal.RefValue

open Idealize.ShloMosaic Idealize.ShloMosaic.TcCoe Idealize.SL.Sem
open Cert.ReferenceIdeal Cert.ReferenceIdeal.Gen

/-- The reference run's result term is the kernel's closed form of the same array, at every array of reals. -/
theorem result_eq (x : FVec Ideal S16384x16384 .f32) (hx : ∀ i, ∃ r : ℝ, x i = (r : EReal)) :
    mulf (subf (broadcastInDim S16384x16384 ![] bcast_S_S16384x16384 (constant S_ .f32 0x40000000#32))
        (mulf (mulf (broadcastInDim S16384x16384 ![] bcast_S_S16384x16384 (constant S_ .f32 0x40000000#32)) x) x))
      (mulf (broadcastInDim S16384x16384 ![] bcast_S_S16384x16384 (constant S_ .f32 0x3ECC422A#32))
        (Host.exp (mulf (mulf (broadcastInDim S16384x16384 ![] bcast_S_S16384x16384 (constant S_ .f32 0xBF000000#32)) x) x)))
    = Cert.KernelIdeal.Value.G1 (F := Ideal) x := by
  funext i
  obtain ⟨r, hr⟩ := hx i
  simp only [Cert.KernelIdeal.Value.G1, mulf, subf, Host.exp, broadcastInDim, constant, Ideal.mulf_def, Ideal.subf_def,
    Ideal.hostUnary_exp_def, Ideal.exp_def, Ideal.ofBits_def, hr]
  exact Cert.HessGelu.pointwise r

end Cert.ReferenceIdeal.RefValue

end
-- ==== Proof.lean ====
/-
  The certificate of the elementwise GELU-Hessian kernel against its jnp reference.

  Both programs map an array x of 16384 x 16384 floats to (2 - 2 x^2) * pdf(x), pdf(x) = exp(-x^2/2) / sqrt(2 pi), entry by entry.
  The reference multiplies (2 - (2 x) x) by s * exp(((-1/2) x) x), s the float nearest 1/sqrt(2 pi); the kernel, one block of 128
  rows per grid point, multiplies (1 - x x) by (2 s) * exp((-1/2) (x x)), with 2 s folded into one constant whose binary value is
  exactly twice that of s. Over the extended reals the two agree at every real x by the distributive law (Proof/Law.lean); the
  precondition makes every entry real (Proof/Finite.lean); Proof/Bridge.lean lifts the law to the arrays.
  The kernel's result array as one function of its input and the reference's result term are the generated value leg and the
  generated reference run; each frame claim is the corresponding run weakened, the word-level kernel's its generated frame.
  No operation was rewritten by the idealization, so the preservation claim is trivially true.
-/
import proofs.«107339_j15676630630556_2_alg».proof.Defs
import proofs.«107339_j15676630630556_2_alg».proof.Proof.Gen.Kernel.Frame
import proofs.«107339_j15676630630556_2_alg».proof.Proof.Gen.KernelIdeal.Value
import proofs.«107339_j15676630630556_2_alg».proof.Proof.Gen.Pre_finite_inputs
import proofs.«107339_j15676630630556_2_alg».proof.Proof.Gen.ReferenceIdeal.Run
import proofs.«107339_j15676630630556_2_alg».proof.Proof.Finite
import proofs.«107339_j15676630630556_2_alg».proof.Proof.Bridge
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The kernel's array ends at its closed form of the input, the reference's at its composed term of the same input; the input's
    entries are real by the precondition, and there the two are one function. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.ReferenceIdeal.RefValue.result_eq _ (Cert.HessGelu.real_of_pre _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
